-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S800000 32) (main_arg2 : IVec S800000 32) (main_arg3 : FVec F S128x128 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 61
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S_, .f32⟩
  | .hbm, ⟨6, _⟩ => ⟨S50000, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S_, .f32⟩
  | .hbm, ⟨16, _⟩ => ⟨S800000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S50000x1, .f32⟩
  | .hbm, ⟨23, _⟩ => ⟨S_, .f32⟩
  | .hbm, ⟨24, _⟩ => ⟨S50000, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S_, .f32⟩
  | .hbm, ⟨34, _⟩ => ⟨S800000, .f32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000, .f32⟩
  | .hbm, ⟨40, _⟩ => ⟨S50000x1, .f32⟩
  | .hbm, ⟨41, _⟩ => ⟨S50000x128, .f32⟩
  | .hbm, ⟨42, _⟩ => ⟨S50000x128, .f32⟩
  | .hbm, ⟨43, _⟩ => ⟨S50000x128, .bf16⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .bf16⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S128x128, .bf16⟩
  | .hbm, ⟨59, _⟩ => ⟨S1x128, .f32⟩
  | .hbm, ⟨60, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .bf16⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_c_4 : Ref sig .tc := ⟨.hbm, 25, rfl⟩
abbrev main_v14 : Ref sig .tc := ⟨.hbm, 26, rfl⟩
abbrev main_v15 : Ref sig .tc := ⟨.hbm, 27, rfl⟩
abbrev main_c_5 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_cst_7 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_8 : Ref sig .tc := ⟨.hbm, 44, rfl⟩
abbrev main_v29 : Ref sig .tc := ⟨.hbm, 45, rfl⟩
abbrev main_v30 : Ref sig .tc := ⟨.hbm, 46, rfl⟩
abbrev main_c_9 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_10 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bitsLt_bf16_f32 : FTy.bits .bf16 < FTy.bits .f32
  bcast_S_S50000x128 : S_.BroadcastsInDim S50000x128 (![] : Fin 0 → Fin S50000x128.rank)
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v39) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v40) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v41) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v42) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩

abbrev nBuf : Space → Nat
  | .hbm => 65
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S_, .f32⟩
  | .hbm, ⟨6, _⟩ => ⟨S50000, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S_, .f32⟩
  | .hbm, ⟨16, _⟩ => ⟨S800000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S50000x1, .f32⟩
  | .hbm, ⟨23, _⟩ => ⟨S_, .f32⟩
  | .hbm, ⟨24, _⟩ => ⟨S50000, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S_, .f32⟩
  | .hbm, ⟨34, _⟩ => ⟨S800000, .f32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000, .f32⟩
  | .hbm, ⟨40, _⟩ => ⟨S50000x1, .f32⟩
  | .hbm, ⟨41, _⟩ => ⟨S50000x128, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S50000x128, .f32⟩
  | .hbm, ⟨57, _⟩ => ⟨S50000x128, .f32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S_, .f32⟩
  | .hbm, ⟨63, _⟩ => ⟨S50000x128, .f32⟩
  | .hbm, ⟨64, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_c_4 : Ref sig .tc := ⟨.hbm, 25, rfl⟩
abbrev main_v14 : Ref sig .tc := ⟨.hbm, 26, rfl⟩
abbrev main_v15 : Ref sig .tc := ⟨.hbm, 27, rfl⟩
abbrev main_c_5 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_cst_7 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_8 : Ref sig .tc := ⟨.hbm, 43, rfl⟩
abbrev main_v28 : Ref sig .tc := ⟨.hbm, 44, rfl⟩
abbrev main_v29 : Ref sig .tc := ⟨.hbm, 45, rfl⟩
abbrev main_c_9 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_call0_cst : Ref sig .tc := ⟨.hbm, 62, rfl⟩
abbrev main_call0_v0 : Ref sig .tc := ⟨.hbm, 63, rfl⟩
abbrev main_v44 : Ref sig .tc := ⟨.hbm, 64, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.LibRowBlocks.lean ====
/-
  Row blocks of a dense layer, at the ideal values.

  A layer's output array is cut into blocks of R consecutive rows; the block that starts at row o of an [N, C] array
  is computed from the matching row block of the left operand and from whole small operands (a weight matrix, a
  one-row bias).  Each lemma says: the block computation, read at an entry y of the block, is the whole-array
  host computation read at the entry of the array where y sits.  The embeddings of block entries into array
  entries are abstract maps with the two or three index equations a row block satisfies.
-/
import Idealize.ShloMosaic.PureOps.Ideal.Laws
import Idealize.ShloMosaic.Lib.ValueIdx
import Idealize.ShloMosaic.Lib.Pipeline.Value
import proofs.«177404_j850403525191_2_alg».proof.Proof.LibPlainDot

noncomputable section

namespace Cert.Bridge

open Idealize.ShloMosaic Idealize.ShloMosaic.ValueIdx Cert.Lib.PlainDot
open scoped BigOperators

variable {R N K C : Nat}

/-- Entry (0, c) of a one-row matrix, for the column c of the entry `j`. -/
abbrev rowZero {A : Nat} (j : (⟨2, ![A, C]⟩ : Shape).Idx) : (⟨2, ![1, C]⟩ : Shape).Idx := fun a => match a with
  | ⟨0, _⟩ => ⟨0, Nat.one_pos⟩
  | ⟨1, _⟩ => ⟨(j 1).val, (j 1).isLt⟩

/-- The product of a row block with the whole right factor is the row block of the product. -/
theorem mm_block (X : (⟨2, ![N, K]⟩ : Shape).Idx → EReal) (W : (⟨2, ![K, C]⟩ : Shape).Idx → EReal)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (h0 : ∀ y k, e0 (rowIdx y k) = rowIdx (eo y) k) (h1 : ∀ y k, e1 (colIdx y k) = colIdx (eo y) k)
    (y : (⟨2, ![R, C]⟩ : Shape).Idx) :
    mm (fun j => X (e0 j)) (fun j => W (e1 j)) y = mm X W (eo y) := by
  unfold mm
  exact Finset.sum_congr rfl fun k _ => by dsimp only; rw [h0, h1]

/-- A one-row matrix stretched over R rows, read at an entry: the row's entry in that column. -/
theorem stretchRow_apply {φ : FTy} (v : FVec Ideal ⟨2, ![1, C]⟩ φ)
    (h : (⟨2, ![1, C]⟩ : Shape).Broadcasts ⟨2, ![R, C]⟩) (y : (⟨2, ![R, C]⟩ : Shape).Idx) :
    broadcastTo ⟨2, ![R, C]⟩ v h y = v (rowZero y) := by
  refine broadcastTo_apply v h y (rowZero y) (fun a => ?_)
  match a with
  | ⟨0, _⟩ => exact (if_pos rfl).symm
  | ⟨1, _⟩ =>
    show (y 1).val = if C = 1 then 0 else (y 1).val
    have hlt : (y 1).val < C := (y 1).isLt
    split_ifs with hC
    · omega
    · rfl

/-- The host's stretch of a one-row matrix over N rows, read at an entry. -/
theorem hostStretchRow_apply {φ : FTy} (v : FVec Ideal ⟨2, ![1, C]⟩ φ)
    (h : (⟨2, ![1, C]⟩ : Shape).BroadcastsInDim ⟨2, ![N, C]⟩ ![0, 1]) (i : (⟨2, ![N, C]⟩ : Shape).Idx) :
    broadcastInDim ⟨2, ![N, C]⟩ ![0, 1] h v i = v (rowZero i) := by
  refine broadcastInDim_apply ![0, 1] h v i (rowZero i) (fun a => ?_)
  match a with
  | ⟨0, _⟩ => exact (if_pos rfl).symm
  | ⟨1, _⟩ =>
    show (i 1).val = if C = 1 then 0 else (i 1).val
    have hlt : (i 1).val < C := (i 1).isLt
    split_ifs with hC
    · omega
    · rfl

/-- The host's stretch of a scalar over a matrix, read at an entry. -/
theorem hostSplat_apply {φ : FTy} (z : FVec Ideal ⟨0, ![]⟩ φ)
    (h : (⟨0, ![]⟩ : Shape).BroadcastsInDim ⟨2, ![N, C]⟩ ![]) (i : (⟨2, ![N, C]⟩ : Shape).Idx) :
    broadcastInDim ⟨2, ![N, C]⟩ ![] h z i = z ix0 :=
  broadcastInDim_apply ![] h z i ix0 (fun a => a.elim0)

/-- A vector laid out as a one-row matrix by a reshape is the vector laid out by adding a leading unit axis. -/
theorem reshapeRow_eq {φ : FTy} (v : FVec Ideal ⟨1, ![C]⟩ φ)
    (hs : (⟨1, ![C]⟩ : Shape).ShapeCasts ⟨2, ![1, C]⟩)
    (hb : (⟨1, ![C]⟩ : Shape).BroadcastsInDim ⟨2, ![1, C]⟩ ![1]) :
    shapeCast ⟨2, ![1, C]⟩ v hs = broadcastInDim ⟨2, ![1, C]⟩ ![1] hb v := by
  funext j
  have hj0 : (j 0).val = 0 := by have h : (j 0).val < 1 := (j 0).isLt; omega
  have e1 : shapeCast ⟨2, ![1, C]⟩ v hs j = v (ix1 (j 1)) :=
    shapeCast_apply v hs j (ix1 (j 1)) (by
      rw [Shape.rowMajor_val_one, Shape.rowMajor_val_two]
      show (j 1).val = (j 0).val * C + (j 1).val
      rw [hj0]; omega)
  have e2 : broadcastInDim ⟨2, ![1, C]⟩ ![1] hb v j = v (ix1 (j 1)) :=
    broadcastInDim_apply ![1] hb v j (ix1 (j 1)) (fun a => by
      match a with
      | ⟨0, _⟩ =>
        show (j 1).val = if C = 1 then 0 else (j 1).val
        have hlt : (j 1).val < C := (j 1).isLt
        split_ifs with hC
        · omega
        · rfl)
  rw [e1, e2]

/-- THE MATRIX PRODUCT of a row block, against the host's product of the whole arrays. -/
theorem dot_block {φ₁ φ₂ φ₃ φ₄ : FTy} (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ φ₃) (W : FVec Ideal ⟨2, ![K, C]⟩ φ₄)
    (x0 : FVec Ideal ⟨2, ![R, K]⟩ φ₁) (x1 : FVec Ideal ⟨2, ![K, C]⟩ φ₂)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (hx0 : ∀ j, x0 j = X (e0 j)) (hx1 : ∀ j, x1 j = W (e1 j))
    (h0 : ∀ y k, e0 (rowIdx y k) = rowIdx (eo y) k) (h1 : ∀ y k, e1 (colIdx y k) = colIdx (eo y) k)
    (y : (⟨2, ![R, C]⟩ : Shape).Idx) :
    matmul d prec x0 x1 (constant ⟨2, ![R, C]⟩ .f32 0x00000000#32) y = Host.dotGeneral D prec' X W (eo y) := by
  have ex0 : (x0 : (⟨2, ![R, K]⟩ : Shape).Idx → EReal) = fun j => X (e0 j) := funext hx0
  have ex1 : (x1 : (⟨2, ![K, C]⟩ : Shape).Idx → EReal) = fun j => W (e1 j) := funext hx1
  simp only [Host.dotGeneral, matmul]
  rw [Cert.Lib.PlainDot.matmul_zero_apply d hd, Cert.Lib.PlainDot.dotGeneral_apply D hD, ex0, ex1]
  exact mm_block X W e0 e1 eo h0 h1 y

/-- THE EMBEDDING LAYER of a row block: product, one-row bias stretched over the rows, maximum with a constant —
    against the same three host operations on the whole arrays. -/
theorem embed_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (matmul d prec x0 x1 (constant ⟨2, ![R, C]⟩ .f32 0x00000000#32)) (broadcastTo ⟨2, ![R, C]⟩ x2 hb))
        (broadcast ⟨2, ![R, C]⟩ (Scalar.ofBits (F := Ideal) .f32 z)) y
      = maximumf (addf (Host.dotGeneral D prec' X W) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply,
    dot_block d hd D hD prec prec' X W x0 x1 e0 e1 eo hx0 hx1 h0 h1 y,
    stretchRow_apply, hostStretchRow_apply, hostSplat_apply, hx2, h2]
  rfl

/-- THE COMBINE STEP of a row block: two arrays added, one-row bias stretched over the rows, maximum with a
    constant — against the same host operations on the whole arrays. -/
theorem combine_block (A H : FVec Ideal ⟨2, ![N, C]⟩ .f32) (B : FVec Ideal ⟨2, ![1, C]⟩ .f32)
    (x0 x1 : FVec Ideal ⟨2, ![R, C]⟩ .f32) (x2 : FVec Ideal ⟨2, ![1, C]⟩ .f32)
    (e0 e1 : (⟨2, ![R, C]⟩ : Shape).Idx → (⟨2, ![N, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = A (e0 j)) (hx1 : ∀ j, x1 j = H (e1 j)) (hx2 : ∀ j, x2 j = B (e2 j))
    (h0 : ∀ y, e0 y = eo y) (h1 : ∀ y, e1 y = eo y) (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (addf x0 x1) (broadcastTo ⟨2, ![R, C]⟩ x2 hb))
        (broadcast ⟨2, ![R, C]⟩ (Scalar.ofBits (F := Ideal) .f32 z)) y
      = maximumf (addf (addf A H) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply, addf_apply, addf_apply,
    stretchRow_apply, hostStretchRow_apply, hostSplat_apply, hx0, hx1, hx2, h0, h1, h2]
  rfl

/-- THE OUTPUT LAYER of a row block: product plus a one-row bias stretched over the rows. -/
theorem output_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (y : (⟨2, ![R, C]⟩ : Shape).Idx) :
    addf (matmul d prec x0 x1 (constant ⟨2, ![R, C]⟩ .f32 0x00000000#32)) (broadcastTo ⟨2, ![R, C]⟩ x2 hb) y
      = addf (Host.dotGeneral D prec' X W) (broadcastInDim ⟨2, ![N, C]⟩ ![0, 1] hB B) (eo y) := by
  rw [addf_apply, addf_apply,
    dot_block d hd D hD prec prec' X W x0 x1 e0 e1 eo hx0 hx1 h0 h1 y,
    stretchRow_apply, hostStretchRow_apply, hx2, h2]

end Cert.Bridge

end
-- ==== Proof.LibScaledRows.lean ====
/-
  A dense layer whose input rows are first scaled by a per-row factor, computed in blocks of rows, at the ideal values.

  The layer is  out (r, c) = max (∑ k, (s r · p (r, k)) · w (k, c) + b c, z):  each row of the input p is multiplied by
  its own factor s r (a one-column matrix stretched over the row), the scaled rows are multiplied by a weight matrix,
  a one-row bias is added to every row and the result is cut off below at a constant.  A block of R consecutive rows
  of the output depends only on the same rows of p and of s and on the whole small operands.  The lemmas say: that
  block computation — with a change of float format in front of the product, which is the identity on extended
  reals — read at an entry y of the block, is the whole-array host computation read at the entry of the array where
  y sits.  Extents are symbolic; the embeddings of block entries into array entries are abstract maps with the
  index equations a row block satisfies.
-/
import Idealize.ShloMosaic.PureOps.Ideal.Laws
import Idealize.ShloMosaic.Lib.ValueIdx
import Idealize.ShloMosaic.Lib.Pipeline.Value
import proofs.«177404_j850403525191_2_alg».proof.Proof.LibRowBlocks

noncomputable section

namespace Cert.Bridge

open Idealize.ShloMosaic Idealize.ShloMosaic.ValueIdx Cert.Lib.PlainDot
open scoped BigOperators

variable {R N K C : Nat}

/-- Entry (r, 0) of a one-column matrix, for the row r of the entry `j`. -/
abbrev colZero {A B : Nat} (j : (⟨2, ![A, B]⟩ : Shape).Idx) : (⟨2, ![A, 1]⟩ : Shape).Idx := fun a => match a with
  | ⟨0, _⟩ => ⟨(j 0).val, (j 0).isLt⟩
  | ⟨1, _⟩ => ⟨0, Nat.one_pos⟩

/-- A one-column matrix stretched over K columns, read at an entry: the column's entry in that row. -/
theorem stretchCol_apply {φ : FTy} (v : FVec Ideal ⟨2, ![R, 1]⟩ φ)
    (h : (⟨2, ![R, 1]⟩ : Shape).Broadcasts ⟨2, ![R, K]⟩) (y : (⟨2, ![R, K]⟩ : Shape).Idx) :
    broadcastTo ⟨2, ![R, K]⟩ v h y = v (colZero y) := by
  refine broadcastTo_apply v h y (colZero y) (fun a => ?_)
  match a with
  | ⟨0, _⟩ =>
    show (y 0).val = if R = 1 then 0 else (y 0).val
    have hlt : (y 0).val < R := (y 0).isLt
    split_ifs with hR
    · omega
    · rfl
  | ⟨1, _⟩ => exact (if_pos rfl).symm

/-- The host's stretch of a one-column matrix over K columns, read at an entry. -/
theorem hostStretchCol_apply {φ : FTy} (v : FVec Ideal ⟨2, ![N, 1]⟩ φ)
    (h : (⟨2, ![N, 1]⟩ : Shape).BroadcastsInDim ⟨2, ![N, K]⟩ ![0, 1]) (i : (⟨2, ![N, K]⟩ : Shape).Idx) :
    broadcastInDim ⟨2, ![N, K]⟩ ![0, 1] h v i = v (colZero i) := by
  refine broadcastInDim_apply ![0, 1] h v i (colZero i) (fun a => ?_)
  match a with
  | ⟨0, _⟩ =>
    show (i 0).val = if N = 1 then 0 else (i 0).val
    have hlt : (i 0).val < N := (i 0).isLt
    split_ifs with hN
    · omega
    · rfl
  | ⟨1, _⟩ => exact (if_pos rfl).symm

/-- THE SCALED ROWS of a block: every row of the block times its own factor is the same rows of the whole array
    times their factors. -/
theorem scaledRows_block {φ : FTy} (S : FVec Ideal ⟨2, ![N, 1]⟩ φ) (P : FVec Ideal ⟨2, ![N, K]⟩ φ)
    (s : FVec Ideal ⟨2, ![R, 1]⟩ φ) (p : FVec Ideal ⟨2, ![R, K]⟩ φ)
    (ec : (⟨2, ![R, 1]⟩ : Shape).Idx → (⟨2, ![N, 1]⟩ : Shape).Idx)
    (e0 : (⟨2, ![R, K]⟩ : Shape).Idx → (⟨2, ![N, K]⟩ : Shape).Idx)
    (hs : ∀ j, s j = S (ec j)) (hp : ∀ j, p j = P (e0 j)) (hc : ∀ j, ec (colZero j) = colZero (e0 j))
    (hb : (⟨2, ![R, 1]⟩ : Shape).Broadcasts ⟨2, ![R, K]⟩)
    (hB : (⟨2, ![N, 1]⟩ : Shape).BroadcastsInDim ⟨2, ![N, K]⟩ ![0, 1])
    (j : (⟨2, ![R, K]⟩ : Shape).Idx) :
    mulf (broadcastTo ⟨2, ![R, K]⟩ s hb) p j = mulf (broadcastInDim ⟨2, ![N, K]⟩ ![0, 1] hB S) P (e0 j) := by
  rw [mulf_apply, mulf_apply, stretchCol_apply, hostStretchCol_apply, hs, hp, hc]

/-- The whole-array layer as the host writes it: rows scaled, product, bias row stretched over the rows, maximum
    with a constant. -/
def scaledDense (hS : (⟨2, ![N, 1]⟩ : Shape).BroadcastsInDim ⟨2, ![N, K]⟩ ![0, 1])
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (S : FVec Ideal ⟨2, ![N, 1]⟩ .f32) (P : FVec Ideal ⟨2, ![N, K]⟩ .f32) (W : FVec Ideal ⟨2, ![K, C]⟩ .f32)
    (B : FVec Ideal ⟨2, ![1, C]⟩ .f32) : FVec Ideal ⟨2, ![N, C]⟩ .f32 :=
  maximumf (addf (Host.dotGeneral (DotDims.plain N K C) none (mulf (broadcastInDim ⟨2, ![N, K]⟩ ![0, 1] hS S) P) W)
      (broadcastInDim ⟨2, ![N, C]⟩ ![0, 1] hB B))
    (broadcastInDim ⟨2, ![N, C]⟩ ![] hZ (constant (F := Ideal) ⟨0, ![]⟩ .f32 z))

/-- THE LAYER of a row block — rows scaled, narrowed to another float format, product into a zero accumulator,
    one-row bias stretched over the rows, maximum with a constant — is the row block of the whole-array layer. -/
theorem scaledDense_block (φ₂ ψ : FTy) (hψ : ψ.bits < FTy.bits .f32)
    (d : DotDims ⟨2, ![R, K]⟩ ⟨2, ![K, C]⟩ ⟨2, ![R, C]⟩) (hd : d = DotDims.plain R K C)
    (prec : Option ContractPrecision)
    (S : FVec Ideal ⟨2, ![N, 1]⟩ .f32) (P : FVec Ideal ⟨2, ![N, K]⟩ .f32) (W : FVec Ideal ⟨2, ![K, C]⟩ .f32)
    (B : FVec Ideal ⟨2, ![1, C]⟩ .f32)
    (s : FVec Ideal ⟨2, ![R, 1]⟩ .f32) (p : FVec Ideal ⟨2, ![R, K]⟩ .f32) (x1 : FVec Ideal ⟨2, ![K, C]⟩ φ₂)
    (x2 : FVec Ideal ⟨2, ![1, C]⟩ .f32)
    (ec : (⟨2, ![R, 1]⟩ : Shape).Idx → (⟨2, ![N, 1]⟩ : Shape).Idx)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hs : ∀ j, s j = S (ec j)) (hp : ∀ j, p j = P (e0 j)) (hx1 : ∀ j, x1 j = W (e1 j)) (hx2 : ∀ j, x2 j = B (e2 j))
    (hc : ∀ j, ec (colZero j) = colZero (e0 j))
    (h0 : ∀ y k, e0 (rowIdx y k) = rowIdx (eo y) k) (h1 : ∀ y k, e1 (colIdx y k) = colIdx (eo y) k)
    (h2 : ∀ y, e2 (rowZero y) = rowZero (eo y))
    (hbs : (⟨2, ![R, 1]⟩ : Shape).Broadcasts ⟨2, ![R, K]⟩)
    (hS : (⟨2, ![N, 1]⟩ : Shape).BroadcastsInDim ⟨2, ![N, K]⟩ ![0, 1])
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (matmul d prec (truncf ψ (mulf (broadcastTo ⟨2, ![R, K]⟩ s hbs) p) hψ) x1
          (constant ⟨2, ![R, C]⟩ .f32 0x00000000#32)) (broadcastTo ⟨2, ![R, C]⟩ x2 hb))
        (broadcast ⟨2, ![R, C]⟩ (Scalar.ofBits (F := Ideal) .f32 z)) y
      = scaledDense hS hB hZ z S P W B (eo y) := by
  have hx0 : ∀ j, (truncf ψ (mulf (broadcastTo ⟨2, ![R, K]⟩ s hbs) p) hψ : FVec Ideal ⟨2, ![R, K]⟩ ψ) j
      = mulf (broadcastInDim ⟨2, ![N, K]⟩ ![0, 1] hS S) P (e0 j) := fun j => by
    rw [truncf_apply]
    exact scaledRows_block S P s p ec e0 hs hp hc hbs hS j
  unfold scaledDense
  rw [maximumf_apply, maximumf_apply, addf_apply, addf_apply,
    dot_block d hd (DotDims.plain N K C) rfl prec none (mulf (broadcastInDim ⟨2, ![N, K]⟩ ![0, 1] hS S) P) W
      (truncf ψ (mulf (broadcastTo ⟨2, ![R, K]⟩ s hbs) p) hψ) x1 e0 e1 eo hx0 hx1 h0 h1 y,
    stretchRow_apply, hostStretchRow_apply, hostSplat_apply, hx2, h2]
  rfl

end Cert.Bridge

end
-- ==== Proof.DenseBody.lean ====
/-
  The kernel body at the ideal values: one block of 5000 rows of the layer.

  At a grid point the body loads a 5000×128 block p of the pooled features, the matching 5000×1 block s of per-row
  factors, the whole 128×128 weight matrix w and the whole 1×128 bias row b, and stores
      max (∑ k, (s r · p (r, k)) · w (k, c) + b c, 0)
  at entry (r, c) of its 5000×128 output block.  Read at an entry of the block, that is the whole-array layer read at
  the entry of the 50000×128 array where the block entry sits — the change of float format of the scaled rows and the
  identity shape casts of the loads change nothing on extended reals.
-/
import proofs.«177404_j850403525191_2_alg».proof.Proof.Gen.KernelIdeal.Skeleton
import proofs.«177404_j850403525191_2_alg».proof.Proof.LibScaledRows

noncomputable section

namespace Cert.KernelIdeal.DenseBody

open Cert.KernelIdeal Cert.KernelIdeal.Gen Idealize.ShloMosaic Idealize.ShloMosaic.ValueIdx
open Cert.Bridge Cert.Lib.PlainDot
open Facts₀

/-- The body's contraction is the plain 5000×128 by 128×128 product. -/
theorem dot_plain : dot_S5000x128_S128x128_S5000x128_1_0_0_1_n_n = DotDims.plain 5000 128 128 := rfl

/-- The body's stored value at a block entry `y` is the whole-array layer at the array entry `eo y`, for loaded
    blocks that are the matching parts of whole arrays S (factors), P (pooled features), W (weights), B (bias row). -/
theorem payload_apply (S : FVec Ideal S50000x1 .f32) (P : FVec Ideal S50000x128 .f32) (W : FVec Ideal S128x128 .f32)
    (B : FVec Ideal S1x128 .f32)
    (v0 : Vec Ideal S5000x1 .f32) (v2 : Vec Ideal S5000x128 .f32) (v7 : Vec Ideal S128x128 .bf16)
    (v10 : Vec Ideal S1x128 .f32)
    (ec : S5000x1.Idx → S50000x1.Idx) (e0 : S5000x128.Idx → S50000x128.Idx) (e1 : S128x128.Idx → S128x128.Idx)
    (e2 : S1x128.Idx → S1x128.Idx) (eo : S5000x128.Idx → S50000x128.Idx)
    (hs : ∀ j, v0 j = S (ec j)) (hp : ∀ j, v2 j = P (e0 j)) (hx1 : ∀ j, v7 j = W (e1 j)) (hx2 : ∀ j, v10 j = B (e2 j))
    (hc : ∀ j, ec (colZero j) = colZero (e0 j))
    (h0 : ∀ y k, e0 (rowIdx y k) = rowIdx (eo y) k) (h1 : ∀ y k, e1 (colIdx y k) = colIdx (eo y) k)
    (h2 : ∀ y, e2 (rowZero y) = rowZero (eo y))
    (hS : S50000x1.BroadcastsInDim S50000x128 ![0, 1]) (hB : S1x128.BroadcastsInDim S50000x128 ![0, 1])
    (hZ : S_.BroadcastsInDim S50000x128 ![]) (y : S5000x128.Idx) :
    k0_pay1 (F := Ideal) v0 v2 v7 v10 y = scaledDense hS hB hZ 0x00000000#32 S P W B (eo y) := by
  unfold k0_pay1
  simp only [shapeCast_self]
  exact scaledDense_block .bf16 .bf16 Facts₀.bitsLt_bf16_f32 _ dot_plain none S P W B v0 v2 v7 v10 ec e0 e1 e2 eo
    hs hp hx1 hx2 hc h0 h1 h2 Facts₀.broadcasts_S5000x1_S5000x128 hS Facts₀.broadcasts_S1x128_S5000x128 hB hZ
    0x00000000#32 y

end Cert.KernelIdeal.DenseBody

end
-- ==== Proof.DenseValue.lean ====
/-
  From blocks to the whole array: what the kernel's output array holds after the run, at the ideal values.

  The grid has 10 points; point t stages rows 5000·t … 5000·t + 4999 of the pooled features and of the per-row
  factors, the whole weight matrix and the whole bias row, and writes back rows 5000·t … 5000·t + 4999 of the output.
  What it writes back is that row block of the whole-array layer of the arrays the region finds (the body's stored
  value, read entry by entry); the ten row blocks cover the 50000 rows (row r is in the block of point r / 5000); so
  after the run the output array is the whole-array layer.
-/
import proofs.«177404_j850403525191_2_alg».proof.Proof.Gen.KernelIdeal.Value
import proofs.«177404_j850403525191_2_alg».proof.Proof.DenseBody

set_option maxRecDepth 16384

noncomputable section

namespace Cert.KernelIdeal.DenseValue

open Cert.KernelIdeal Cert.KernelIdeal.Gen Idealize.ShloMosaic Idealize.ShloMosaic.TcCoe Idealize.SL.Sem
open Idealize.ShloMosaic.Pipeline (Dat)
open Cert.Bridge Cert.Lib.PlainDot

variable (m : (ℓ : Loc nD τ sig) → Buf (Elt Ideal) ℓ) (ρ : Dev nD → PrngReg)

theorem stretchScale : S50000x1.BroadcastsInDim S50000x128 ![0, 1] := by decide
theorem stretchBias : S1x128.BroadcastsInDim S50000x128 ![0, 1] := by decide
theorem splat : S_.BroadcastsInDim S50000x128 ![] := by decide

/-- The body's loads and its store start at the origin of their blocks. -/
theorem origin : (![0, 0] : Fin 2 → Nat) = fun _ => 0 := funext fun a => by fin_cases a <;> rfl

/-- The whole-array layer of the arrays as the region finds them: factors, pooled features, weights, bias row. -/
def layer (c : Dev nD) : S50000x128.Idx → EReal :=
  scaledDense stretchScale stretchBias splat 0x00000000#32 (V m c main_v25) (V m c main_v39) (V m c main_v40)
    (V m c main_v41)

/-- The index maps, decided over the ten grid points: the row-blocked windows (pooled features, factors, output) are
    at block row t and block column 0, the weights and the bias row at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The array row of row j of the row block of point t. -/
def blockRow (t : Fin cfg0.N) (j : Fin 5000) : Fin 50000 :=
  ⟨t.val * 5000 + j.val, by have h1 := t.isLt; have h2 : cfg0.N = 10 := N_0; omega⟩

/-- Where entry j of a 5000-row block at block row t sits in the 50000-row array: same column, row 5000·t + j₀. -/
def place {b : Nat} (t : Fin cfg0.N) (j : (⟨2, ![5000, b]⟩ : Shape).Idx) : (⟨2, ![50000, b]⟩ : Shape).Idx :=
  fun a => match a with
  | ⟨0, _⟩ => blockRow t ⟨(j 0).val, (j 0).isLt⟩
  | ⟨1, _⟩ => ⟨(j 1).val, (j 1).isLt⟩

/-- The factor of a block entry's row sits at the factor of its array row. -/
theorem place_col (t : Fin cfg0.N) (j : S5000x128.Idx) : place t (colZero j) = colZero (place t j) :=
  funext fun a => match a with
  | ⟨0, _⟩ => rfl
  | ⟨1, _⟩ => rfl

/-- Entry (r, k) of the block's left factor sits at entry (row of r, k) of the array's. -/
theorem place_row (t : Fin cfg0.N) (y : S5000x128.Idx) (k : Fin 128) : place t (rowIdx y k) = rowIdx (place t y) k :=
  funext fun a => match a with
  | ⟨0, _⟩ => rfl
  | ⟨1, _⟩ => rfl

/-- The weight entry a block entry needs is the one its array entry needs: same column. -/
theorem place_weight (t : Fin cfg0.N) (y : S5000x128.Idx) (k : Fin 128) :
    (colIdx y k : S128x128.Idx) = colIdx (place t y) k :=
  funext fun a => match a with
  | ⟨0, _⟩ => rfl
  | ⟨1, _⟩ => rfl

/-- The bias entry a block entry needs is the one its array entry needs: same column. -/
theorem place_bias (t : Fin cfg0.N) (y : S5000x128.Idx) : (rowZero y : S1x128.Idx) = rowZero (place t y) :=
  funext fun a => match a with
  | ⟨0, _⟩ => rfl
  | ⟨1, _⟩ => rfl

/-- Point t's block of per-row factors: entry j is the array's entry at its place. -/
theorem blk_scale (c : Dev nD) (t : Fin cfg0.N) (j : S5000x1.Idx) : iblk m c 1 t j = V m c main_v25 (place t j) := by
  obtain ⟨-, -, a10, a11, -, -, -, -, -, -⟩ := idx_facts t
  unfold iblk
  generalize V m c = found
  rw [View.read_apply]
  refine (cast_eq _ _).trans ?_
  refine congrArg (found main_v25) (funext fun a => Fin.ext ?_)
  match a with
  | ⟨0, _⟩ =>
    show win0_1.index t (0 : Fin 2) * 5000 + 1 * (j 0).val = t.val * 5000 + (j 0).val
    omega
  | ⟨1, _⟩ =>
    show win0_1.index t (1 : Fin 2) * 1 + 1 * (j 1).val = (j 1).val
    omega

/-- Point t's block of pooled features: entry j is the array's entry at its place. -/
theorem blk_pooled (c : Dev nD) (t : Fin cfg0.N) (j : S5000x128.Idx) : iblk m c 0 t j = V m c main_v39 (place t j) := by
  obtain ⟨a00, a01, -, -, -, -, -, -, -, -⟩ := idx_facts t
  unfold iblk
  generalize V m c = found
  rw [View.read_apply]
  refine (cast_eq _ _).trans ?_
  refine congrArg (found main_v39) (funext fun a => Fin.ext ?_)
  match a with
  | ⟨0, _⟩ =>
    show win0_0.index t (0 : Fin 2) * 5000 + 1 * (j 0).val = t.val * 5000 + (j 0).val
    omega
  | ⟨1, _⟩ =>
    show win0_0.index t (1 : Fin 2) * 128 + 1 * (j 1).val = (j 1).val
    omega

/-- Every point's block of the weights is the whole weight matrix. -/
theorem blk_weights (c : Dev nD) (t : Fin cfg0.N) (j : S128x128.Idx) : iblk m c 2 t j = V m c main_v40 j := by
  obtain ⟨-, -, -, -, a20, a21, -, -, -, -⟩ := idx_facts t
  unfold iblk
  generalize V m c = found
  rw [View.read_apply]
  refine (cast_eq _ _).trans ?_
  refine congrArg (found main_v40) (funext fun a => Fin.ext ?_)
  match a with
  | ⟨0, _⟩ =>
    show win0_2.index t (0 : Fin 2) * 128 + 1 * (j 0).val = (j 0).val
    omega
  | ⟨1, _⟩ =>
    show win0_2.index t (1 : Fin 2) * 128 + 1 * (j 1).val = (j 1).val
    omega

/-- Every point's block of the bias is the whole bias row. -/
theorem blk_bias (c : Dev nD) (t : Fin cfg0.N) (j : S1x128.Idx) : iblk m c 3 t j = V m c main_v41 j := by
  obtain ⟨-, -, -, -, -, -, a30, a31, -, -⟩ := idx_facts t
  unfold iblk
  generalize V m c = found
  rw [View.read_apply]
  refine (cast_eq _ _).trans ?_
  refine congrArg (found main_v41) (funext fun a => Fin.ext ?_)
  match a with
  | ⟨0, _⟩ =>
    show win0_3.index t (0 : Fin 2) * 1 + 1 * (j 0).val = (j 0).val
    omega
  | ⟨1, _⟩ =>
    show win0_3.index t (1 : Fin 2) * 128 + 1 * (j 1).val = (j 1).val
    omega

/-- What a write-back takes of a staged block, read at an entry: the block at the same entry. -/
theorem cut_apply {α : Type} (w : Pipeline.Window sig grid0) (i : grid0.Coords) (X : w.block.Idx → α)
    (y : (w.xblock i).Idx) : w.cut i X y = X (w.xinj i y) := rfl

/-- WHAT POINT t WRITES BACK is row block t of the whole-array layer. -/
theorem flushed_eq (c : Dev nD) (t : Fin cfg0.N) :
    (dats m 0 c).flushed 4 t = ((cfg0.win 4).blk t).view.read (Elt Ideal) (layer m c) := by
  rw [Value.flushed4]
  unfold out0_4
  rw [View.canon_unit_zero origin]
  simp only [View.ld_unit_zero (S := S5000x1) origin, View.ld_unit_zero (S := S5000x128) origin,
    View.ld_unit_zero (S := S128x128) origin, View.ld_unit_zero (S := S1x128) origin]
  obtain ⟨-, -, -, -, -, -, -, -, a40, a41⟩ := idx_facts t
  funext y
  rw [View.read_apply, cut_apply]
  refine Eq.trans ?_ (cast_eq _ _).symm
  unfold layer
  refine (DenseBody.payload_apply (V m c main_v25) (V m c main_v39) (V m c main_v40) (V m c main_v41)
    (iblk m c 1 t) (iblk m c 0 t) (iblk m c 2 t) (iblk m c 3 t) (place t) (place t) id id (place t)
    (blk_scale m c t) (blk_pooled m c t) (blk_weights m c t) (blk_bias m c t)
    (place_col t) (place_row t) (place_weight t) (place_bias t) stretchScale stretchBias splat
    ((win0 4).xinj (grid0.coords t) y)).trans ?_
  refine congrArg _ (funext fun a => Fin.ext ?_)
  match a with
  | ⟨0, _⟩ =>
    show t.val * 5000 + (y 0).val = win0_4.index t (0 : Fin 2) * 5000 + 1 * (y 0).val
    omega
  | ⟨1, _⟩ =>
    show (y 1).val = win0_4.index t (1 : Fin 2) * 128 + 1 * (y 1).val
    omega

/-- An entry of the array is in point t's block iff each coordinate is in the block's range on its axis. -/
theorem mem_blk (t : Fin cfg0.N) (i : S50000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v42).slice (win0_4.rect t)).set ↔ _
  rw [View.set_slice_whole, Rect.mem_set_unit]
  exact Iff.rfl

/-- THE COVER: entry (r, c) is in the block of point r / 5000, which writes back. -/
theorem cover (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨-, -, -, -, -, -, -, -, a40, a41⟩ := idx_facts ⟨(i 0).val / 5000, ht⟩
  refine ⟨⟨(i 0).val / 5000, ht⟩, flush0_4 _, ?_⟩
  rw [mem_blk]
  intro a
  match a with
  | ⟨0, _⟩ =>
    show win0_4.index ⟨(i 0).val / 5000, ht⟩ (0 : Fin 2) * 5000 ≤ (i 0).val
      ∧ (i 0).val < win0_4.index ⟨(i 0).val / 5000, ht⟩ (0 : Fin 2) * 5000 + 5000
    rw [a40]
    show (i 0).val / 5000 * 5000 ≤ (i 0).val ∧ (i 0).val < (i 0).val / 5000 * 5000 + 5000
    omega
  | ⟨1, _⟩ =>
    show win0_4.index ⟨(i 0).val / 5000, ht⟩ (1 : Fin 2) * 128 ≤ (i 1).val
      ∧ (i 1).val < win0_4.index ⟨(i 0).val / 5000, ht⟩ (1 : Fin 2) * 128 + 128
    rw [a41]
    omega

/-- THE ARRAY after the run is the whole-array layer of what the region found. -/
theorem final (c : Dev nD) : (dats m 0 c).arrAt 4 cfg0.N = layer m c :=
  (dats m 0 c).arrAt_eq_of_cover 4 (layer m c) (fun t _ => flushed_eq m c t) cover

/-- The kernel's run: the output array ends at the whole-array layer, the arguments unchanged. -/
theorem run : θ_run defs (onTc (τ := τ) (main (F := Ideal))) ⟨m, fun _ => 0, ρ⟩ fun r => ∀ c : Dev nD,
      r.2.mem ((c : Thread nD τ).loc main_v42) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.DenseValue

end
-- ==== Proof.HostArrays.lean ====
/-
  What the kernel's region finds in the four arrays it stages, as functions of the program's arguments, at the ideal
  values.

  Before the region the host computes, from the node features x, the edge lists src and tgt, the weights W and the
  bias b:
    * a degree count per node — ones added at the (wrapped) entries of an index list into zeros —, cut off below at 1,
      and its inverse square root, laid out as a one-column matrix: invSqrtDegCol;
    * the pooled features: every row of x times the factor of its node by the src count, gathered at the (wrapped)
      src entries, one row per edge, and added into zeros at the tgt entries: pooled (the changes of float format on
      the way are the identity on extended reals, but are kept here as the program writes them);
    * W in another float format, and b laid out as a one-row matrix.
-/
import proofs.«177404_j850403525191_2_alg».proof.Proof.Gen.KernelIdeal.Frame
import Idealize.ShloMosaic.Lib.StableHlo.Run
import Idealize.ShloMosaic.PureOps.Ideal.Laws
import Idealize.ShloMosaic.Lib.ValueIdx

noncomputable section

namespace Cert.KernelIdeal.HostArrays

open Cert.KernelIdeal Idealize.ShloMosaic Idealize.ShloMosaic.TcCoe Idealize.SL.Sem Idealize.ShloMosaic.StableHlo

/-- An index list with its negative entries wrapped (50000 added), as a one-column index matrix. -/
def wrapCol (idx : IVec S800000 32) : IVec S800000x1 32 :=
  broadcastInDim S800000x1 ![0] Facts₀.bcast_S800000_S800000x1_0
    (select (cmpi .slt idx (broadcastInDim S800000 ![] Facts₀.bcast_S_S800000 (constantI S_ 32 0#32)))
      (addi idx (broadcastInDim S800000 ![] Facts₀.bcast_S_S800000 (constantI S_ 32 50000#32))) idx)

/-- The inverse square root of each node's count in an index list, the count cut off below at 1. -/
def invSqrtDeg (idx : IVec S800000 32) : FVec Ideal S50000 .f32 :=
  Host.rsqrt (maximumf
    (Host.scatterAdd scatter_S50000_S800000x1_S800000_n_0_0_1
      (broadcastInDim S50000 ![] Facts₀.bcast_S_S50000 (constant (F := Ideal) S_ .f32 0x00000000#32)) (wrapCol idx)
      (broadcastInDim S800000 ![] Facts₀.bcast_S_S800000 (constant (F := Ideal) S_ .f32 0x3F800000#32)))
    (broadcastInDim S50000 ![] Facts₀.bcast_S_S50000 (constant (F := Ideal) S_ .f32 0x3F800000#32)))

/-- The same as a one-column matrix. -/
def invSqrtDegCol (idx : IVec S800000 32) : FVec Ideal S50000x1 .f32 :=
  broadcastInDim S50000x1 ![0] Facts₀.bcast_S50000_S50000x1_0 (invSqrtDeg idx)

/-- The pooled features: rows of x scaled by the src factor, gathered along src, summed along tgt. -/
def pooled (x : FVec Ideal S50000x128 .f32) (src tgt : IVec S800000 32) : FVec Ideal S50000x128 .f32 :=
  Host.scatterAdd scatter_S50000x128_S800000x1_S800000x128_1_0_0_1
    (broadcastInDim S50000x128 ![] Facts₀.bcast_S_S50000x128 (constant (F := Ideal) S_ .f32 0x00000000#32))
    (broadcastInDim S800000x1 ![0] Facts₀.bcast_S800000_S800000x1_0 tgt)
    (extf .f32 (Host.gather gather_S50000x128_S800000x1_S800000x128_1_0_n_n_0_1_1128
      (truncf .bf16 (mulf (broadcastInDim S50000x128 ![0, 1] Facts₀.bcast_S50000x1_S50000x128_0_1 (invSqrtDegCol src)) x)
        Facts₀.bitsLt_bf16_f32)
      (wrapCol src)) Facts₀.bitsLt_bf16_f32)

variable (m : (ℓ : Loc nD τ sig) → Buf (Elt Ideal) ℓ)

/-- The weights as the region finds them: W in the narrower float format. -/
theorem found_weights (c : Dev nD) :
    (Gen.V m c main_v40 : FVec Ideal S128x128 .bf16)
      = truncf (F := Ideal) .bf16 (m ((c : Thread nD τ).loc main_arg3) : FVec Ideal S128x128 .f32) Facts₀.bitsLt_bf16_f32 := by
  dsimp only [Gen.V, Gen.hostOps0]
  after_results

/-- The bias as the region finds it: b as a one-row matrix. -/
theorem found_bias (c : Dev nD) :
    (Gen.V m c main_v41 : FVec Ideal S1x128 .f32)
      = shapeCast S1x128 (m ((c : Thread nD τ).loc main_arg4) : FVec Ideal S128 .f32) Facts₀.shapeCasts_S128_S1x128 := by
  dsimp only [Gen.V, Gen.hostOps0]
  after_results
  rfl

set_option maxHeartbeats 1000000 in
/-- The per-row factors as the region finds them: the inverse square root of the tgt count, as a column. -/
theorem found_scale (c : Dev nD) :
    (Gen.V m c main_v25 : FVec Ideal S50000x1 .f32) = invSqrtDegCol (m ((c : Thread nD τ).loc main_arg2)) := by
  dsimp only [Gen.V, Gen.hostOps0]
  after_results_simp
  rfl

set_option maxHeartbeats 1000000 in
/-- The pooled features as the region finds them. -/
theorem found_pooled (c : Dev nD) :
    (Gen.V m c main_v39 : FVec Ideal S50000x128 .f32) = pooled (m ((c : Thread nD τ).loc main_arg0)) (m ((c : Thread nD τ).loc main_arg1))
      (m ((c : Thread nD τ).loc main_arg2)) := by
  dsimp only [Gen.V, Gen.hostOps0]
  after_results_simp
  rfl

end Cert.KernelIdeal.HostArrays

end
-- ==== Proof.RefLayer.lean ====
/-
  The reference computes the same layer of the same arrays, at the ideal values.

  The reference's host program builds the per-row factors and the pooled features by the very operations the kernel's
  host prefix uses — the same index wrap, the same counts by scatter-add of ones, the same maximum with 1, inverse
  square root, gather along the source list and scatter-add along the target list — except that it never changes
  the float format on the way, which on extended reals is no difference.  It then forms
      max (∑ k, (s r · pooled (r, k)) · W (k, c) + b c, 0)
  with whole-array host operations, which is the layer written as `scaledDense`.  The two programs' dimension records
  for the scatters, the gather and the product have the same entries.
-/
import proofs.«177404_j850403525191_2_alg».proof.Proof.Gen.ReferenceIdeal.Read
import proofs.«177404_j850403525191_2_alg».proof.Proof.HostArrays
import proofs.«177404_j850403525191_2_alg».proof.Proof.LibScaledRows

noncomputable section

namespace Cert.ReferenceIdeal.RefLayer

open Cert.ReferenceIdeal Idealize.ShloMosaic Idealize.ShloMosaic.ValueIdx Cert.Bridge

/-- The two programs' records of the degree count's scatter are the same. -/
theorem countScatter_eq : Cert.KernelIdeal.scatter_S50000_S800000x1_S800000_n_0_0_1
    = scatter_S50000_S800000x1_S800000_n_0_0_1 := rfl
/-- The two programs' records of the row gather are the same. -/
theorem rowGather_eq : Cert.KernelIdeal.gather_S50000x128_S800000x1_S800000x128_1_0_n_n_0_1_1128
    = gather_S50000x128_S800000x1_S800000x128_1_0_n_n_0_1_1128 := rfl
/-- The two programs' records of the row scatter are the same. -/
theorem rowScatter_eq : Cert.KernelIdeal.scatter_S50000x128_S800000x1_S800000x128_1_0_0_1
    = scatter_S50000x128_S800000x1_S800000x128_1_0_0_1 := rfl
/-- The reference's contraction is the plain 50000×128 by 128×128 product. -/
theorem dot_plain : dot_S50000x128_S128x128_S50000x128_1_0_0_1_n_n = DotDims.plain 50000 128 128 := rfl

theorem stretchScale : S50000x1.BroadcastsInDim S50000x128 ![0, 1] := by decide
theorem stretchBias : S1x128.BroadcastsInDim S50000x128 ![0, 1] := by decide
theorem splat : S_.BroadcastsInDim S50000x128 ![] := by decide

/-- The reference's per-row factors are the kernel's. -/
theorem scale_eq (tgt : IVec S800000 32) :
    Read.val_main_v25 (F := Ideal) tgt = Cert.KernelIdeal.HostArrays.invSqrtDegCol tgt := by
  unfold Read.val_main_v25 Read.val_main_v24 Read.val_main_v23 Read.val_main_v22 Read.val_main_cst_7 Read.val_main_v21
    Read.val_main_v20 Read.val_main_cst_6 Read.val_main_v19 Read.val_main_v18 Read.val_main_v17 Read.val_main_v16
    Read.val_main_c_5 Read.val_main_v15 Read.val_main_v14 Read.val_main_c_4 Read.val_main_v13 Read.val_main_cst_3
    Cert.KernelIdeal.HostArrays.invSqrtDegCol Cert.KernelIdeal.HostArrays.invSqrtDeg Cert.KernelIdeal.HostArrays.wrapCol
  rw [countScatter_eq]

/-- The reference's pooled features are the kernel's: the kernel's two changes of float format are the identity. -/
theorem pooled_eq (x : FVec Ideal S50000x128 .f32) (src tgt : IVec S800000 32) :
    Read.val_main_v37 (F := Ideal) x src tgt = Cert.KernelIdeal.HostArrays.pooled x src tgt := by
  unfold Read.val_main_v37 Read.val_main_v36 Read.val_main_v35 Read.val_main_cst_10 Read.val_main_v34 Read.val_main_v33
    Read.val_main_v32 Read.val_main_v31 Read.val_main_v30 Read.val_main_c_9 Read.val_main_v29 Read.val_main_v28
    Read.val_main_c_8 Read.val_main_v27 Read.val_main_v26 Read.val_main_v12 Read.val_main_v11 Read.val_main_v10
    Read.val_main_v9 Read.val_main_cst_2 Read.val_main_v8 Read.val_main_v7 Read.val_main_cst_1 Read.val_main_v6
    Read.val_main_v5 Read.val_main_v4 Read.val_main_v3 Read.val_main_c_0 Read.val_main_v2 Read.val_main_v1
    Read.val_main_c Read.val_main_v0 Read.val_main_cst
    Cert.KernelIdeal.HostArrays.pooled Cert.KernelIdeal.HostArrays.invSqrtDegCol Cert.KernelIdeal.HostArrays.invSqrtDeg
    Cert.KernelIdeal.HostArrays.wrapCol
  rw [countScatter_eq, rowGather_eq, rowScatter_eq]
  rfl

/-- The reference's one-row bias is the kernel's reshaped bias. -/
theorem bias_eq (b : FVec Ideal S128 .f32) :
    Read.val_main_v41 (F := Ideal) b = shapeCast S1x128 b Cert.KernelIdeal.Facts₀.shapeCasts_S128_S1x128 :=
  (reshapeRow_eq b Cert.KernelIdeal.Facts₀.shapeCasts_S128_S1x128 Facts₀.bcast_S128_S1x128_1).symm

/-- THE REFERENCE'S RESULT is the whole-array layer of its factors, its pooled features, W and its bias row. -/
theorem result_eq (x : FVec Ideal S50000x128 .f32) (src tgt : IVec S800000 32) (W : FVec Ideal S128x128 .f32)
    (b : FVec Ideal S128 .f32) :
    Read.val_main_v44 (F := Ideal) x src tgt W b
      = scaledDense stretchScale stretchBias splat 0x00000000#32 (Read.val_main_v25 (F := Ideal) tgt)
          (Read.val_main_v37 (F := Ideal) x src tgt) W (Read.val_main_v41 (F := Ideal) b) := by
  unfold Read.val_main_v44 Read.val_main_v43 Read.val_main_v42 Read.val_main_v40 Read.val_main_v39 Read.val_main_v38
    Read.val_main_call0_v0 Read.val_main_call0_cst scaledDense
  rw [dot_plain]

end Cert.ReferenceIdeal.RefLayer

end
-- ==== Proof.lean ====
/-
  A graph-convolution layer: the kernel against its reference, on extended reals.

  Both programs take node features x [50000, 128], two edge lists src and tgt [800000], weights W [128, 128] and a
  bias b [128], and return  out (r, c) = max (∑ k, (s r · pooled (r, k)) · W (k, c) + b c, 0)  where
    * s r is the inverse square root of the number of edges whose tgt entry is r (at least 1),
    * pooled (r, ·) is the sum, over the edges whose tgt entry is r, of the row of x at the edge's src entry times the
      inverse square root of that node's src count (at least 1).
  The two host programs compute s and pooled by the same operations; the kernel narrows the scaled rows and W to
  another float format and widens the gathered rows back, which changes nothing on extended reals.  The kernel then
  computes the layer in ten blocks of 5000 rows, each block from its own rows of pooled and s and from the whole W
  and b — a product into a zero accumulator, the bias row stretched over the rows, the maximum with 0 —, and the
  reference computes it with whole-array host operations.  A row block of the layer depends only on the same rows of
  pooled and s, so the ten blocks, which cover the 50000 rows, make up the reference's array.  No law that needs
  finiteness is used: the two sides are the same sums of the same products.

  The kernel read on extended reals is its own text with no operation replaced, so the preservation claim has no
  conjunct to prove.
-/
import proofs.«177404_j850403525191_2_alg».proof.Defs
import proofs.«177404_j850403525191_2_alg».proof.Proof.Gen.Kernel
import proofs.«177404_j850403525191_2_alg».proof.Proof.Gen.Kernel.Skeleton
import proofs.«177404_j850403525191_2_alg».proof.Proof.Gen.Kernel.Launch
import proofs.«177404_j850403525191_2_alg».proof.Proof.Gen.Kernel.Points
import proofs.«177404_j850403525191_2_alg».proof.Proof.Gen.Kernel.Frame
import proofs.«177404_j850403525191_2_alg».proof.Proof.Gen.KernelIdeal
import proofs.«177404_j850403525191_2_alg».proof.Proof.Gen.KernelIdeal.Skeleton
import proofs.«177404_j850403525191_2_alg».proof.Proof.Gen.KernelIdeal.Launch
import proofs.«177404_j850403525191_2_alg».proof.Proof.Gen.KernelIdeal.Points
import proofs.«177404_j850403525191_2_alg».proof.Proof.Gen.KernelIdeal.Frame
import proofs.«177404_j850403525191_2_alg».proof.Proof.Gen.ReferenceIdeal
import proofs.«177404_j850403525191_2_alg».proof.Proof.Gen.Pre_finite_inputs
import proofs.«177404_j850403525191_2_alg».proof.Proof.Gen.KernelIdeal.Value
import proofs.«177404_j850403525191_2_alg».proof.Proof.Gen.ReferenceIdeal.Run
import proofs.«177404_j850403525191_2_alg».proof.Proof.Gen.ReferenceIdeal.Read
import proofs.«177404_j850403525191_2_alg».proof.Proof.DenseValue
import proofs.«177404_j850403525191_2_alg».proof.Proof.HostArrays
import proofs.«177404_j850403525191_2_alg».proof.Proof.RefLayer
import Idealize.ShloMosaic.Adequacy
import Idealize.ShloMosaic.Init

noncomputable section

namespace Cert.Proof

open Idealize.ShloMosaic Idealize.ShloMosaic.TcCoe Idealize.SL.Sem

/-- The kernel's output array as a function of the arguments: the whole-array layer of the factors and pooled
    features its host prefix computes, of W (the narrowing is the identity) and of b as a one-row matrix. -/
theorem kernel_layer (m : (ℓ : Loc Cert.KernelIdeal.nD Cert.KernelIdeal.τ Cert.KernelIdeal.sig) → Buf (Elt Ideal) ℓ)
    (c : Dev Cert.KernelIdeal.nD) :
    Cert.KernelIdeal.DenseValue.layer m c
      = Cert.Bridge.scaledDense Cert.KernelIdeal.DenseValue.stretchScale Cert.KernelIdeal.DenseValue.stretchBias
          Cert.KernelIdeal.DenseValue.splat 0x00000000#32
          (Cert.KernelIdeal.HostArrays.invSqrtDegCol
            (m ((c : Thread Cert.KernelIdeal.nD Cert.KernelIdeal.τ).loc Cert.KernelIdeal.main_arg2)))
          (Cert.KernelIdeal.HostArrays.pooled
            (m ((c : Thread Cert.KernelIdeal.nD Cert.KernelIdeal.τ).loc Cert.KernelIdeal.main_arg0))
            (m ((c : Thread Cert.KernelIdeal.nD Cert.KernelIdeal.τ).loc Cert.KernelIdeal.main_arg1))
            (m ((c : Thread Cert.KernelIdeal.nD Cert.KernelIdeal.τ).loc Cert.KernelIdeal.main_arg2)))
          (m ((c : Thread Cert.KernelIdeal.nD Cert.KernelIdeal.τ).loc Cert.KernelIdeal.main_arg3))
          (shapeCast Cert.KernelIdeal.S1x128
            (m ((c : Thread Cert.KernelIdeal.nD Cert.KernelIdeal.τ).loc Cert.KernelIdeal.main_arg4) :
              FVec Ideal Cert.KernelIdeal.S128 .f32)
            Cert.KernelIdeal.Facts₀.shapeCasts_S128_S1x128) := by
  unfold Cert.KernelIdeal.DenseValue.layer
  rw [Cert.KernelIdeal.HostArrays.found_scale, Cert.KernelIdeal.HostArrays.found_pooled,
    Cert.KernelIdeal.HostArrays.found_weights, Cert.KernelIdeal.HostArrays.found_bias]
  rfl

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the same array: the kernel's ten row blocks make up the whole-array layer of what its host
    prefix computed, the reference's result is the whole-array layer of what its host program computed, and on
    arguments that agree the two are the same arrays. -/
theorem algebraic : Cert.algebraic_KernelIdeal_ReferenceIdeal := by
  intro m ρ m' ρ' _ hagree
  refine ⟨fun c => Cert.KernelIdeal.DenseValue.layer m c, Cert.KernelIdeal.DenseValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v44_eq (F := Ideal) _ _ _ _ _).trans ?_
  rw [Cert.ReferenceIdeal.RefLayer.result_eq, Cert.ReferenceIdeal.RefLayer.scale_eq,
    Cert.ReferenceIdeal.RefLayer.pooled_eq, Cert.ReferenceIdeal.RefLayer.bias_eq,
    (hagree c).1, (hagree c).2.1, (hagree c).2.2.1, (hagree c).2.2.2.1, (hagree c).2.2.2.2]
  exact (kernel_layer m c).symm

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, trivial, algebraic⟩

end Cert.Proof

end
